-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩
abbrev S4096x1024 : Shape := ⟨2, ![4096, 1024]⟩

abbrev nBuf : Space → Nat
  | .hbm => 7
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S256x4096, .bf16⟩
  | .local _ .vmem, ⟨9, _⟩ => ⟨S256x4096, .bf16⟩
  | .local _ .vmem, ⟨10, _⟩ => ⟨S1024x4096, .bf16⟩
  | .local _ .vmem, ⟨11, _⟩ => ⟨S1024x4096, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .bf16 = 32 ∨ (Rect.block (s := S8192x4096) S256x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S4096x4096.size a
  hwx2_1 : ∀ i : grid2.Coords, EltTy.bits .bf16 = 32 ∨ (Rect.block (s := S4096x4096) S1024x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S8192x4096.size a
  hwx2_3 : ∀ i : grid2.Coords, EltTy.bits .f32 = 32 ∨ (Rect.block (s := S8192x4096) S256x1024.size (cc2_transform_3 i) (hinb2_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.BinaryLayer.lean ====
/-
  The binarized linear layer as one function of its three argument arrays, on the extended reals.

  An entry of the result depends on one row of the activations, one row of the weights and one entry of the bias:
      out (n, o) = ∑ k, sgn (x (n, k)) · sgn (w (o, k)) + bias o,
  where `sgn` is the two-valued sign with `sgn 0 = +1`: the constant `1` where `0 ≤ x` and `-1` elsewhere.
  The three constants stay the words the two programs print; nothing here needs their numerical values.

  One law relates the two programs. The reference does not compute `sgn x` but `x + (sgn x - x)` (the
  straight-through form of the sign). On the extended reals that is `sgn x` exactly when `x` is a real number: at an
  infinite `x` the difference and the sum collapse to an infinity. So the law is used at a real `x` (and holds with
  any extended real in place of `sgn x`: Proof/LibFiniteEReal.lean).
-/
import Idealize.ShloMosaic.PureOps.Ideal
import Idealize.ShloMosaic.Lib.ValueIdx
import proofs.«111217_j65343632442057_2_alg».proof.Proof.LibFiniteEReal

noncomputable section

open scoped BigOperators

namespace Cert.BinaryLayer

open Idealize.ShloMosaic Idealize.ShloMosaic.ValueIdx

/-- The two-valued sign, `+1` at zero: the word `1.0` where `0 ≤ x`, the word `-1.0` elsewhere. -/
def sgn (x : EReal) : EReal :=
  Scalar.select (FloatOps.cmpf (F := Ideal) (φ := .f32) .oge x (FloatOps.ofBits (F := Ideal) .f32 0x00000000#32))
    (FloatOps.ofBits (F := Ideal) .f32 0x3F800000#32) (FloatOps.ofBits (F := Ideal) .f32 0xBF800000#32)

/-- Row `n` of `a` against row `o` of `b`, plus entry `o` of the one row `r`. -/
def rowsDotAt (a : (⟨2, ![8192, 4096]⟩ : Shape).Idx → EReal) (b : (⟨2, ![4096, 4096]⟩ : Shape).Idx → EReal)
    (r : (⟨2, ![1, 4096]⟩ : Shape).Idx → EReal) (n : Fin 8192) (o : Fin 4096) : EReal :=
  (∑ k : Fin 4096, a (ix2 n k) * b (ix2 o k)) + r (ix2 (0 : Fin 1) o)

/-- The rows of `a` against the rows of `b` (the product of `a` with the transpose of `b`), the row `r` added to
    every row of the result. -/
def rowsDot (a : (⟨2, ![8192, 4096]⟩ : Shape).Idx → EReal) (b : (⟨2, ![4096, 4096]⟩ : Shape).Idx → EReal)
    (r : (⟨2, ![1, 4096]⟩ : Shape).Idx → EReal) : (⟨2, ![8192, 4096]⟩ : Shape).Idx → EReal :=
  fun i => rowsDotAt a b r (i 0) (i 1)

/-- The layer: the whole result array as a function of the argument arrays — the rows of the signs of `x` against
    the rows of the signs of `w`, plus the bias laid out as one row. -/
def layer (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  rowsDot (fun i => sgn (x i)) (fun i => sgn (w i)) (fun j => b (ix1 (j 1)))

/-- Entry `(n, o)` of the layer, written out. -/
theorem layer_ix2 (x : (⟨2, ![8192, 4096]⟩ : Shape).Idx → EReal) (w : (⟨2, ![4096, 4096]⟩ : Shape).Idx → EReal)
    (b : (⟨1, ![4096]⟩ : Shape).Idx → EReal) (n : Fin 8192) (o : Fin 4096) :
    layer x w b (ix2 n o) = (∑ k : Fin 4096, sgn (x (ix2 n k)) * sgn (w (ix2 o k))) + b (ix1 o) := rfl

/-- The straight-through form of the sign is the sign, at a real argument. -/
theorem ste_eq_sgn {x : EReal} (hx : ∃ r : ℝ, x = (r : EReal)) : x + (sgn x - x) = sgn x := by
  obtain ⟨r, rfl⟩ := hx
  exact Cert.Lib.FiniteEReal.add_sub_cancel_real r _

end Cert.BinaryLayer

end
-- ==== Proof.FiniteInputs.lean ====
/-
  What the precondition says, element by element: every entry of the three argument arrays is a real number.

  The precondition is the conjunction of three tests "every entry has absolute value below +∞", one per argument.
  On the extended reals the absolute value of `x` is `max x (-x)`, and the word the test compares with denotes `⊤`;
  `max x (-x) < ⊤` fails at `x = ⊤` and at `x = ⊥` (where `-x = ⊤`), so it holds exactly at the real numbers. A
  conjunction of one-bit words that is 1 has every conjunct 1, and a reduction by "and" over all axes that is 1 met
  a 1 at every index.
-/
import proofs.«111217_j65343632442057_2_alg».proof.Pre_finite_inputs
import Idealize.ShloMosaic.Lib.ReduceAll
import Idealize.ShloMosaic.Lib.ValueIdx
import Idealize.ShloMosaic.PureOps.Ideal
import proofs.«111217_j65343632442057_2_alg».proof.Proof.LibFiniteEReal

noncomputable section

namespace Cert.Pre_finite_inputs.Finite

open Idealize.ShloMosaic Cert.Pre_finite_inputs

/-- The scalar shape has one index. -/
instance : Subsingleton S_.Idx := ⟨fun a b => funext fun d => d.elim0⟩

variable [Facts]

/-- Under the precondition every entry of every argument array is a real number. -/
theorem all_real {x0 : FVec Ideal S8192x4096 .f32} {x1 : FVec Ideal S4096x4096 .f32} {x2 : FVec Ideal S4096 .f32}
    (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  change IntOp.andi (IntOp.andi _ _) _ = 1#1 at h0
  obtain ⟨h01, hc⟩ := IntOp.andi_eq_one.1 h0
  obtain ⟨ha, hb⟩ := IntOp.andi_eq_one.1 h01
  exact ⟨fun i => Cert.Lib.FiniteEReal.real_of_abs_lt _ (Host.reduce_andi_all _ _ _ _ _ ha i),
    fun i => Cert.Lib.FiniteEReal.real_of_abs_lt _ (Host.reduce_andi_all _ _ _ _ _ hb i),
    fun i => Cert.Lib.FiniteEReal.real_of_abs_lt _ (Host.reduce_andi_all _ _ _ _ _ hc i)⟩

end Cert.Pre_finite_inputs.Finite

end
-- ==== Proof.ReferenceValue.lean ====
/-
  The reference program's result is the layer, when the activations and the weights are real numbers.

  The reference forms the sign of an array as `select (0 ≤ x) 1 (-1)` and then, instead of using it, uses
  `x + (sign - x)` (the straight-through form). Entry by entry that is the sign itself exactly when the entry is a
  real number; this is the one place where finiteness of the inputs is used, and it is needed for `x` and for the
  weights, not for the bias. With both operands replaced by their signs, the host's contraction of the second axes
  of the two arrays is, at `(n, o)`, the sum over `k` of the products of row `n` of the one and row `o` of the other,
  and the two broadcasts of the bias read its entry `o`.
-/
import proofs.«111217_j65343632442057_2_alg».proof.Proof.Gen.ReferenceIdeal.Read
import proofs.«111217_j65343632442057_2_alg».proof.Proof.BinaryLayer

noncomputable section

open scoped BigOperators

namespace Cert.ReferenceIdeal.RefValue

open Cert.ReferenceIdeal Cert.ReferenceIdeal.Read Idealize.ShloMosaic Idealize.ShloMosaic.ValueIdx
open Cert.BinaryLayer

/-- The selected constant, for the activations: the sign of the entry. -/
theorem selected_x (x0 : (⟨S8192x4096, .f32⟩ : BufTy).Contents (Elt Ideal)) (i : S8192x4096.Idx) :
    val_main_v2 (F := Ideal) x0 i = sgn (x0 i) := by
  rw [val_main_v2_apply, val_main_v1_apply, val_main_v0_apply, val_main_cst_apply, val_main_call0_v0_apply,
    val_main_cst_0_apply, val_main_call0_v1_apply, val_main_cst_1_apply]
  rfl

/-- The straight-through form for the activations is the sign, at a real entry. -/
theorem through_x (x0 : (⟨S8192x4096, .f32⟩ : BufTy).Contents (Elt Ideal)) (hx0 : ∀ i, ∃ r : ℝ, x0 i = (r : EReal))
    (i : S8192x4096.Idx) : val_main_v5 (F := Ideal) x0 i = sgn (x0 i) := by
  rw [val_main_v5_apply, val_main_v4_apply, val_main_v3_apply, selected_x]
  exact ste_eq_sgn (hx0 i)

/-- The selected constant, for the weights: the sign of the entry. -/
theorem selected_w (x1 : (⟨S4096x4096, .f32⟩ : BufTy).Contents (Elt Ideal)) (i : S4096x4096.Idx) :
    val_main_v8 (F := Ideal) x1 i = sgn (x1 i) := by
  rw [val_main_v8_apply, val_main_v7_apply, val_main_v6_apply, val_main_cst_2_apply, val_main_call1_v0_apply,
    val_main_cst_3_apply, val_main_call1_v1_apply, val_main_cst_4_apply]
  rfl

/-- The straight-through form for the weights is the sign, at a real entry. -/
theorem through_w (x1 : (⟨S4096x4096, .f32⟩ : BufTy).Contents (Elt Ideal)) (hx1 : ∀ i, ∃ r : ℝ, x1 i = (r : EReal))
    (i : S4096x4096.Idx) : val_main_v11 (F := Ideal) x1 i = sgn (x1 i) := by
  rw [val_main_v11_apply, val_main_v10_apply, val_main_v9_apply, selected_w]
  exact ste_eq_sgn (hx1 i)

/-- The contraction reads row `n` of its left operand … -/
theorem left_at (n : Fin 8192) (o : Fin 4096) (k : Fin 4096) : lidx_main_v12 (ix2 n o) k = ix2 n k :=
  funext fun a => Fin.ext (by match a with | ⟨0, _⟩ => rfl | ⟨1, _⟩ => rfl)
/-- … and row `o` of its right operand. -/
theorem right_at (n : Fin 8192) (o : Fin 4096) (k : Fin 4096) : ridx_main_v12 (ix2 n o) k = ix2 o k :=
  funext fun a => Fin.ext (by match a with | ⟨0, _⟩ => rfl | ⟨1, _⟩ => rfl)
/-- The two broadcasts of the bias read its entry `o`. -/
theorem bias_at (n : Fin 8192) (o : Fin 4096) : idx_main_v13 (idx_main_v14 (ix2 n o)) = ix1 o :=
  funext fun a => Fin.ext (by match a with | ⟨0, _⟩ => rfl)

/-- The reference's result is the layer of its three arguments, when the first two hold real numbers. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal))
    (hx0 : ∀ i, ∃ r : ℝ, x0 i = (r : EReal)) (hx1 : ∀ i, ∃ r : ℝ, x1 i = (r : EReal)) :
    val_main_v15 (F := Ideal) x0 x1 x2 = layer x0 x1 x2 := by
  funext i
  obtain ⟨n, o, rfl⟩ : ∃ (n : Fin 8192) (o : Fin 4096), i = ix2 n o := ⟨i 0, i 1, eq_ix2 i⟩
  rw [val_main_v15_apply, val_main_v12_apply, val_main_v14_apply, val_main_v13_apply, layer_ix2, bias_at]
  refine congrArg₂ (· + ·) (Finset.sum_congr rfl fun k _ => ?_) rfl
  rw [through_x x0 hx0, through_w x1 hx1, left_at, right_at]

end Cert.ReferenceIdeal.RefValue

end
-- ==== Proof.KernelRun.lean ====
/-
  The kernel program's run with its result array named.

  The program is three pipelined regions with one host operation between the second and the third. Region by region
  the contents of every buffer the regions do not scope are a fold from the launch memory: after the first region
  the array of signs of `x` holds what that region's write-backs leave, after the second the array of signs of the
  weights does, the host operation lays the bias out as one row, and after the third region the result array holds
  what its write-backs leave. Every weakly fair execution terminates without a fault in a state whose unscoped
  buffers hold the last stage of that fold; read at the result array and at the three arguments, that is the
  statement below. What the fold's last stage IS, as a function of the arguments, is the business of the modules
  that read each region's write-backs.
-/
import proofs.«111217_j65343632442057_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    stage of the fold of buffer contents through the three regions and the host operation, and the three argument
    arrays as launched. -/
theorem run : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Whole

end
-- ==== Proof.SignsOfInput.lean ====
/-
  Region 0 of the kernel program: the signs of the activations, block by block, and the whole array they fill.

  The region's grid has 16 points; point `t` stages rows `512·t … 512·t + 511` of the 8192 × 4096 input array and
  writes back the same rows of the output array. The body stores, at every position of the block, the two-valued sign
  of the input element at that position (the narrowing to the 16-bit format is the identity on the extended reals).
  So what point `t` writes back is block `t` of ONE whole-array function, the sign of the input array entry by entry,
  and since the 16 blocks tile the array (row `r` lies in block `r / 512`), the output array ends as that function.
  Everything is stated at whatever contents `V` the buffers have when the region is entered.
-/
import proofs.«111217_j65343632442057_2_alg».proof.Proof.Gen.KernelIdeal.Frame
import proofs.«111217_j65343632442057_2_alg».proof.Proof.BinaryLayer
import Idealize.ShloMosaic.Lib.Pipeline.Value

noncomputable section

namespace Cert.KernelIdeal.SignsOfInput

open Cert.KernelIdeal Cert.KernelIdeal.Gen Idealize.ShloMosaic Idealize.ShloMosaic.TcCoe Idealize.SL.Sem
open Idealize.ShloMosaic.Pipeline (Dat)
open Cert.BinaryLayer

variable (V : (c : Dev nD) → (b : Ref sig .tc) → Buf (Elt Ideal) ((c : Thread nD τ).loc b))

/-- The body's one load and one store start at the block's origin. -/
theorem origin : (![0, 0] : Fin 2 → Nat) = fun _ => 0 := funext fun a => by fin_cases a <;> rfl

/-- The array of signs of an array of extended reals. -/
abbrev signs (a : S8192x4096.Idx → Elt Ideal .f32) : S8192x4096.Idx → Elt Ideal .bf16 := fun i => sgn (a i)

/-- The value the body stores is, position by position, the sign of the loaded element: compare with zero, choose
    between the two constants, and narrow (the identity here). -/
theorem stored_eq (x0 : Vec Ideal S512x4096 .f32) : k0_pay1 (F := Ideal) x0 = fun j => sgn (x0 j) := rfl

/-- The input block and the output block of a point have the same block index, over the 16 points. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every block of rows is some point's output block. -/
theorem block_of_rows : ∀ q : Fin 16, ∃ t : Fin cfg0.N, win0_1.index t = ![q.val, 0] :=
  (by decide +kernel : ∀ q : Fin 16, ∃ t : Fin grid0.N, win0_1.index t = ![q.val, 0])

/-- What point `t` writes back is block `t` of the array of signs of the input array as the region finds it. -/
theorem written_eq (c : Dev nD) (t : Fin cfg0.N) :
    (dat0 V c).flushed 1 t = ((cfg0.win 1).blk t).view.read (Elt Ideal) (signs (V c main_arg0)) := by
  show (cfg0.win 1).cut (grid0.coords t) ((dat0 V c).after 1 t) = _
  rw [after0_1]
  unfold out0_1
  rw [View.canon_unit_zero origin]
  simp only [View.ld_unit_zero (S := S512x4096) origin]
  rw [stored_eq]
  obtain ⟨e0, e1⟩ := same_block t
  funext j
  show sgn (V c main_arg0 (((cfg0.win 0).blk t).view.emb j)) = sgn (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the output array is in point `t`'s block iff each coordinate is in the block's range on its axis. -/
theorem mem_block (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- The blocks tile the output array: row `r` lies in the block of rows `r / 512`. -/
theorem tiled (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := block_of_rows ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the region's write-backs the output array is the array of signs of the input array. -/
theorem filled (c : Dev nD) : (dat0 V c).arrAt 1 cfg0.N = signs (V c main_arg0) :=
  (dat0 V c).arrAt_eq_of_cover 1 (signs (V c main_arg0)) (fun t _ => written_eq V c t) tiled

end Cert.KernelIdeal.SignsOfInput

end
-- ==== Proof.SignsOfWeight.lean ====
/-
  Region 1 of the kernel program: the signs of the weights, block by block, and the whole array they fill.

  The region's grid has 8 points; point `t` stages rows `512·t … 512·t + 511` of the 4096 × 4096 input array and
  writes back the same rows of the output array. The body stores, at every position of the block, the two-valued sign
  of the input element at that position (the narrowing to the 16-bit format is the identity on the extended reals).
  So what point `t` writes back is block `t` of ONE whole-array function, the sign of the input array entry by entry,
  and since the 8 blocks tile the array (row `r` lies in block `r / 512`), the output array ends as that function.
  Everything is stated at whatever contents `V` the buffers have when the region is entered.
-/
import proofs.«111217_j65343632442057_2_alg».proof.Proof.Gen.KernelIdeal.Frame
import proofs.«111217_j65343632442057_2_alg».proof.Proof.BinaryLayer
import Idealize.ShloMosaic.Lib.Pipeline.Value

noncomputable section

namespace Cert.KernelIdeal.SignsOfWeight

open Cert.KernelIdeal Cert.KernelIdeal.Gen Idealize.ShloMosaic Idealize.ShloMosaic.TcCoe Idealize.SL.Sem
open Idealize.ShloMosaic.Pipeline (Dat)
open Cert.BinaryLayer

variable (V : (c : Dev nD) → (b : Ref sig .tc) → Buf (Elt Ideal) ((c : Thread nD τ).loc b))

/-- The body's one load and one store start at the block's origin. -/
theorem origin : (![0, 0] : Fin 2 → Nat) = fun _ => 0 := funext fun a => by fin_cases a <;> rfl

/-- The array of signs of an array of extended reals. -/
abbrev signs (a : S4096x4096.Idx → Elt Ideal .f32) : S4096x4096.Idx → Elt Ideal .bf16 := fun i => sgn (a i)

/-- The value the body stores is, position by position, the sign of the loaded element: compare with zero, choose
    between the two constants, and narrow (the identity here). -/
theorem stored_eq (x0 : Vec Ideal S512x4096 .f32) : k1_pay1 (F := Ideal) x0 = fun j => sgn (x0 j) := rfl

/-- The input block and the output block of a point have the same block index, over the 8 points. -/
theorem same_block : ∀ t : Fin cfg1.N, win1_0.index t (0 : Fin 2) = win1_1.index t (0 : Fin 2)
    ∧ win1_0.index t (1 : Fin 2) = win1_1.index t (1 : Fin 2) :=
  (by decide +kernel : ∀ t : Fin grid1.N, _)

/-- Every block of rows is some point's output block. -/
theorem block_of_rows : ∀ q : Fin 8, ∃ t : Fin cfg1.N, win1_1.index t = ![q.val, 0] :=
  (by decide +kernel : ∀ q : Fin 8, ∃ t : Fin grid1.N, win1_1.index t = ![q.val, 0])

/-- What point `t` writes back is block `t` of the array of signs of the input array as the region finds it. -/
theorem written_eq (c : Dev nD) (t : Fin cfg1.N) :
    (dat1 V c).flushed 1 t = ((cfg1.win 1).blk t).view.read (Elt Ideal) (signs (V c main_arg1)) := by
  show (cfg1.win 1).cut (grid1.coords t) ((dat1 V c).after 1 t) = _
  rw [after1_1]
  unfold out1_1
  rw [View.canon_unit_zero origin]
  simp only [View.ld_unit_zero (S := S512x4096) origin]
  rw [stored_eq]
  obtain ⟨e0, e1⟩ := same_block t
  funext j
  show sgn (V c main_arg1 (((cfg1.win 0).blk t).view.emb j)) = sgn (V c main_arg1 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

/-- An index of the output array is in point `t`'s block iff each coordinate is in the block's range on its axis. -/
theorem mem_block (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- The blocks tile the output array: row `r` lies in the block of rows `r / 512`. -/
theorem tiled (i : S4096x4096.Idx) :
    ∃ t : Fin cfg1.N, (cfg1.win 1).flush t = true ∧ i ∈ ((cfg1.win 1).blk t).view.set := by
  have hi0 : (i 0).val < 4096 := (i 0).isLt
  have hi1 : (i 1).val < 4096 := (i 1).isLt
  obtain ⟨t, ht⟩ := block_of_rows ⟨(i 0).val / 512, by omega⟩
  have q0 : win1_1.index t (0 : Fin 2) = (i 0).val / 512 := congrFun ht 0
  have q1 : win1_1.index t (1 : Fin 2) = 0 := congrFun ht 1
  refine ⟨t, flush1_1 t, ?_⟩
  rw [mem_block]
  intro a
  match a with
  | ⟨0, _⟩ => show win1_1.index t (0 : Fin 2) * 512 ≤ (i 0).val ∧ (i 0).val < win1_1.index t (0 : Fin 2) * 512 + 512; omega
  | ⟨1, _⟩ => show win1_1.index t (1 : Fin 2) * 4096 ≤ (i 1).val ∧ (i 1).val < win1_1.index t (1 : Fin 2) * 4096 + 4096; omega

/-- After the region's write-backs the output array is the array of signs of the input array. -/
theorem filled (c : Dev nD) : (dat1 V c).arrAt 1 cfg1.N = signs (V c main_arg1) :=
  (dat1 V c).arrAt_eq_of_cover 1 (signs (V c main_arg1)) (fun t _ => written_eq V c t) tiled

end Cert.KernelIdeal.SignsOfWeight

end
-- ==== Proof.RowsTimesRows.lean ====
/-
  Region 2 of the kernel program: the product of the two sign arrays plus the bias row, block by block, and the
  whole result array.

  The grid has 4 × 32 points. Point `(j, i)` stages rows `256·i … 256·i + 255` of the first operand (all 4096
  columns), rows `1024·j … 1024·j + 1023` of the second operand (all 4096 columns), columns `1024·j … 1024·j + 1023`
  of the one-row third operand, and writes back the 256 × 1024 block of the result at block row `i`, block column `j`.
  The body transposes the second block, multiplies (a contraction over the 4096 columns, into a zero accumulator),
  and adds the third block's row to every row. At position `(p, q)` of the block that is
      ∑ k, A (p, k) · B (q, k) + r (0, q)
  of the three staged blocks `A`, `B`, `r`: the transpose read at `(k, q)` is `B (q, k)`, and on the extended
  reals the unit's product is the plain sum of products. A row of the first block is a row of the first array, a
  row of the second block a row of the second array, and the columns contracted over are all of them, so what the
  point writes back is its block of ONE whole-array function: rows against rows, plus the row. The 128 blocks tile
  the result (entry `(n, o)` lies in block row `n / 256`, block column `o / 1024`), so the result array ends as
  that function of the three arrays as the region finds them.
-/
import proofs.«111217_j65343632442057_2_alg».proof.Proof.Gen.KernelIdeal.Frame
import proofs.«111217_j65343632442057_2_alg».proof.Proof.BinaryLayer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowsTimesRows

open Cert.KernelIdeal Cert.KernelIdeal.Gen Idealize.ShloMosaic Idealize.ShloMosaic.TcCoe Idealize.SL.Sem
open Idealize.ShloMosaic.Pipeline (Dat)
open Idealize.ShloMosaic.ValueIdx
open Cert.BinaryLayer

/-! ## The body's value at a position of the block -/

/-- Position `(p, q)` of the block the body stores, from the three staged blocks. -/
def blockAt (A : Vec Ideal S256x4096 .bf16) (B : Vec Ideal S1024x4096 .bf16) (r : Vec Ideal S1x1024 .f32)
    (p : Fin 256) (q : Fin 1024) : EReal :=
  (∑ k : Fin 4096, A (ix2 p k) * B (ix2 q k)) + r (ix2 (0 : Fin 1) q)

/-- The left operand's row is the output row … -/
theorem left_row (i : S256x1024.Idx) (κ : dot_S256x4096_S4096x1024_S256x1024_1_0_0_1_n_n.contr.Idx) :
    (dot_S256x4096_S4096x1024_S256x1024_1_0_0_1_n_n.lhsIdx i κ 0).val = (i 0).val := by
  unfold DotDims.lhsIdx
  rw [dif_neg (show ¬(0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl
/-- … and its column the contraction position. -/
theorem left_col (i : S256x1024.Idx) (κ : dot_S256x4096_S4096x1024_S256x1024_1_0_0_1_n_n.contr.Idx) :
    (dot_S256x4096_S4096x1024_S256x1024_1_0_0_1_n_n.lhsIdx i κ 1).val = (κ ⟨0, by decide⟩).val :=
  dot_S256x4096_S4096x1024_S256x1024_1_0_0_1_n_n.lhsIdx_val_of_single rfl i κ
/-- The right operand's row is the contraction position … -/
theorem right_row (i : S256x1024.Idx) (κ : dot_S256x4096_S4096x1024_S256x1024_1_0_0_1_n_n.contr.Idx) :
    (dot_S256x4096_S4096x1024_S256x1024_1_0_0_1_n_n.rhsIdx i κ 0).val = (κ ⟨0, by decide⟩).val :=
  dot_S256x4096_S4096x1024_S256x1024_1_0_0_1_n_n.rhsIdx_val_of_single rfl i κ
/-- … and its column the output column. -/
theorem right_col (i : S256x1024.Idx) (κ : dot_S256x4096_S4096x1024_S256x1024_1_0_0_1_n_n.contr.Idx) :
    (dot_S256x4096_S4096x1024_S256x1024_1_0_0_1_n_n.rhsIdx i κ 1).val = (i 1).val := by
  unfold DotDims.rhsIdx
  rw [dif_neg (show ¬(1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl

/-- The left operand of the contraction at output position `(p, q)` and contraction position `k` is read at `(p, k)`. -/
theorem left_index (p : Fin 256) (q : Fin 1024) (k : Fin 4096) :
    dot_S256x4096_S4096x1024_S256x1024_1_0_0_1_n_n.lhsIdx (ix2 p q)
      ((contrEquiv1 dot_S256x4096_S4096x1024_S256x1024_1_0_0_1_n_n 4096 rfl rfl).symm k) = ix2 p k := by
  have hk := contrEquiv1_symm_val dot_S256x4096_S4096x1024_S256x1024_1_0_0_1_n_n 4096 rfl rfl k
  exact funext fun a => Fin.ext (by
    match a with
    | ⟨0, _⟩ => exact left_row _ _
    | ⟨1, _⟩ => exact (left_col _ _).trans hk)

/-- The right operand (the transposed block) is read at `(k, q)`. -/
theorem right_index (p : Fin 256) (q : Fin 1024) (k : Fin 4096) :
    dot_S256x4096_S4096x1024_S256x1024_1_0_0_1_n_n.rhsIdx (ix2 p q)
      ((contrEquiv1 dot_S256x4096_S4096x1024_S256x1024_1_0_0_1_n_n 4096 rfl rfl).symm k) = ix2 k q := by
  have hk := contrEquiv1_symm_val dot_S256x4096_S4096x1024_S256x1024_1_0_0_1_n_n 4096 rfl rfl k
  exact funext fun a => Fin.ext (by
    match a with
    | ⟨0, _⟩ => exact (right_row _ _).trans hk
    | ⟨1, _⟩ => exact right_col _ _)

/-- The matrix unit's product into a zero accumulator, at position `(p, q)`: the sum over the 4096 contraction
    positions of the products of the operands' elements. -/
theorem product_at (l : FVec Ideal S256x4096 .bf16) (r : FVec Ideal S4096x1024 .bf16) (p : Fin 256) (q : Fin 1024) :
    matmul dot_S256x4096_S4096x1024_S256x1024_1_0_0_1_n_n none l r (constant S256x1024 .f32 0x00000000#32) (ix2 p q)
      = ∑ k : Fin 4096, l (ix2 p k) * r (ix2 k q) := by
  simp only [matmul]
  rw [Ideal.matmul_constant_zero_apply,
    ← Equiv.sum_comp (contrEquiv1 dot_S256x4096_S4096x1024_S256x1024_1_0_0_1_n_n 4096 rfl rfl).symm]
  refine Finset.sum_congr rfl fun k _ => ?_
  rw [left_index, right_index]

/-- The value the body stores, position by position. -/
theorem stored_eq (A : Vec Ideal S256x4096 .bf16) (B : Vec Ideal S1024x4096 .bf16) (r : Vec Ideal S1x1024 .f32) :
    k2_pay1 (F := Ideal) A B r = fun j => blockAt A B r (j 0) (j 1) := by
  funext j
  obtain ⟨p, q, rfl⟩ : ∃ (p : Fin 256) (q : Fin 1024), j = ix2 p q := ⟨j 0, j 1, eq_ix2 j⟩
  unfold k2_pay1
  dsimp only
  refine (addf_apply _ _ (ix2 p q)).trans ?_
  refine congrArg₂ (· + ·) ?_ ?_
  · refine (product_at _ _ p q).trans (Finset.sum_congr rfl fun k _ => ?_)
    rw [shapeCast_self, shapeCast_self, transpose_ix2_apply]
  · rw [broadcastTo_1b_ab_apply, shapeCast_self]

/-! ## From blocks to the array -/

variable (V : (c : Dev nD) → (b : Ref sig .tc) → Buf (Elt Ideal) ((c : Thread nD τ).loc b))

/-- The body's three loads and its store start at the blocks' origins. -/
theorem origin : (![0, 0] : Fin 2 → Nat) = fun _ => 0 := funext fun a => by fin_cases a <;> rfl

/-- How the four windows' block indices are related, over the 128 points: the first operand's block row is the
    result's block row, the second operand's block row is the result's block column, the one-row operand's block
    column is the result's block column, and every other block index is zero. -/
theorem block_indices : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2) :=
  (by decide +kernel : ∀ t : Fin grid2.N, _)

/-- Every (block row, block column) of the result is some point's output block. -/
theorem block_of : ∀ (q0 : Fin 32) (q1 : Fin 4), ∃ t : Fin cfg2.N, win2_3.index t = ![q0.val, q1.val] :=
  (by decide +kernel : ∀ (q0 : Fin 32) (q1 : Fin 4), ∃ t : Fin grid2.N, win2_3.index t = ![q0.val, q1.val])

/-- The block a point computes from its three staged blocks is the rows-against-rows function of the three whole
    arrays, read at the block's positions in the result: a row of a staged block is a row of its array, and the
    contraction runs over all the columns. -/
theorem block_read (A : S8192x4096.Idx → EReal) (B : S4096x4096.Idx → EReal) (R : S1x4096.Idx → EReal)
    (t : Fin cfg2.N) (j : S256x1024.Idx) :
    blockAt (((cfg2.win 0).blk t).view.read (Elt Ideal) A) (((cfg2.win 1).blk t).view.read (Elt Ideal) B)
        (((cfg2.win 2).blk t).view.read (Elt Ideal) R) (j 0) (j 1)
      = rowsDot A B R (((cfg2.win 3).blk t).view.emb j) := by
  obtain ⟨e0, e1, e2, e3, e4, e5⟩ := block_indices t
  show (∑ k : Fin 4096, A (((cfg2.win 0).blk t).view.emb (ix2 (j 0) k))
        * B (((cfg2.win 1).blk t).view.emb (ix2 (j 1) k)))
      + R (((cfg2.win 2).blk t).view.emb (ix2 (0 : Fin 1) (j 1)))
    = (∑ k : Fin 4096, A (ix2 ((((cfg2.win 3).blk t).view.emb j) 0) k)
        * B (ix2 ((((cfg2.win 3).blk t).view.emb j) 1) k))
      + R (ix2 (0 : Fin 1) ((((cfg2.win 3).blk t).view.emb j) 1))
  refine congrArg₂ (· + ·) (Finset.sum_congr rfl fun k _ => congrArg₂ (· * ·) ?_ ?_) ?_
  · refine congrArg A (funext fun a => Fin.ext ?_)
    match a with
    | ⟨0, _⟩ => show win2_0.index t (0 : Fin 2) * 256 + 1 * (j 0).val = win2_3.index t (0 : Fin 2) * 256 + 1 * (j 0).val; omega
    | ⟨1, _⟩ => show win2_0.index t (1 : Fin 2) * 4096 + 1 * k.val = k.val; omega
  · refine congrArg B (funext fun a => Fin.ext ?_)
    match a with
    | ⟨0, _⟩ => show win2_1.index t (0 : Fin 2) * 1024 + 1 * (j 1).val = win2_3.index t (1 : Fin 2) * 1024 + 1 * (j 1).val; omega
    | ⟨1, _⟩ => show win2_1.index t (1 : Fin 2) * 4096 + 1 * k.val = k.val; omega
  · refine congrArg R (funext fun a => Fin.ext ?_)
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- What point `t` writes back is its block of the rows-against-rows function of the three arrays as the region
    finds them. -/
theorem written_eq (c : Dev nD) (t : Fin cfg2.N) :
    (dat2 V c).flushed 3 t
      = ((cfg2.win 3).blk t).view.read (Elt Ideal) (rowsDot (V c main_v0) (V c main_v1) (V c main_v2)) := by
  show (cfg2.win 3).cut (grid2.coords t) ((dat2 V c).after 3 t) = _
  rw [after2_3]
  unfold out2_3
  rw [View.canon_unit_zero origin]
  simp only [View.ld_unit_zero (S := S256x4096) origin, View.ld_unit_zero (S := S1024x4096) origin,
    View.ld_unit_zero (S := S1x1024) origin]
  rw [stored_eq]
  funext j
  exact block_read (V c main_v0) (V c main_v1) (V c main_v2) t j

/-- An index of the result array is in point `t`'s block iff each coordinate is in the block's range on its axis. -/
theorem mem_block (t : Fin cfg2.N) (i : S8192x4096.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v3).slice (win2_3.rect t)).set ↔ _
  rw [View.set_slice_whole, Rect.mem_set_unit]
  exact Iff.rfl

/-- The blocks tile the result: entry `(n, o)` lies in block row `n / 256`, block column `o / 1024`. -/
theorem tiled (i : S8192x4096.Idx) :
    ∃ t : Fin cfg2.N, (cfg2.win 3).flush t = true ∧ i ∈ ((cfg2.win 3).blk t).view.set := by
  have hi0 : (i 0).val < 8192 := (i 0).isLt
  have hi1 : (i 1).val < 4096 := (i 1).isLt
  obtain ⟨t, ht⟩ := block_of ⟨(i 0).val / 256, by omega⟩ ⟨(i 1).val / 1024, by omega⟩
  have q0 : win2_3.index t (0 : Fin 2) = (i 0).val / 256 := congrFun ht 0
  have q1 : win2_3.index t (1 : Fin 2) = (i 1).val / 1024 := congrFun ht 1
  refine ⟨t, flush2_3 t, ?_⟩
  rw [mem_block]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 1024 ≤ (i 1).val ∧ (i 1).val < win2_3.index t (1 : Fin 2) * 1024 + 1024; omega

/-- After the region's write-backs the result array is the rows of the first array against the rows of the
    second, plus the one-row third array, all three as the region finds them. -/
theorem filled (c : Dev nD) :
    (dat2 V c).arrAt 3 cfg2.N = rowsDot (V c main_v0) (V c main_v1) (V c main_v2) :=
  (dat2 V c).arrAt_eq_of_cover 3 (rowsDot (V c main_v0) (V c main_v1) (V c main_v2)) (fun t _ => written_eq V c t) tiled

end Cert.KernelIdeal.RowsTimesRows

end
-- ==== Proof.KernelValue.lean ====
/-
  What the kernel program's result array holds: the layer of the three arguments.

  The fold of buffer contents through the program, read backwards from the result. After the third region the
  result array is the rows of the array of signs of `x` against the rows of the array of signs of the weights, plus
  the one-row bias, all three as the third region finds them. The host operation before it writes only the one-row
  bias (the bias re-laid as `[1, 4096]`, whose entry `(0, o)` is `bias o`), so the two sign arrays are as the second
  region left them; the second region writes only the weights' signs, so the signs of `x` are as the first region
  left them; and each sign region finds its input array as launched, since nothing before it writes an argument.
-/
import proofs.«111217_j65343632442057_2_alg».proof.Proof.KernelRun
import proofs.«111217_j65343632442057_2_alg».proof.Proof.SignsOfInput
import proofs.«111217_j65343632442057_2_alg».proof.Proof.SignsOfWeight
import proofs.«111217_j65343632442057_2_alg».proof.Proof.RowsTimesRows
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Cert.BinaryLayer

variable (m : (ℓ : Loc nD τ sig) → Buf (Elt Ideal) ℓ) (ρ : Dev nD → PrngReg)

/-- The third region finds the first sign array as the first region left it: the signs of `x` as launched. -/
theorem signs_x (c : Dev nD) :
    V3 m ρ c main_v0 = fun i => sgn (m ((c.tc : Thread nD τ).loc main_arg0) i) :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps2, List.Forall, StableHlo.reshape_writes, Finset.mem_singleton]
          exact StableHlo.devRef_ne_of_ne (by decide)))
    _ = W1 m ρ c (Proc.devRef .tc main_v0) := W2_of_ne m ρ c main_v0 (by decide)
    _ = (dat0 (V0 m ρ) c).arrAt 1 cfg0.N := W1_arr m ρ c 1
    _ = SignsOfInput.signs (V0 m ρ c main_arg0) := SignsOfInput.filled (V0 m ρ) c
    _ = fun i => sgn (m ((c.tc : Thread nD τ).loc main_arg0) i) := rfl

/-- The third region finds the second sign array as the second region left it: the signs of the weights as launched. -/
theorem signs_w (c : Dev nD) :
    V3 m ρ c main_v1 = fun i => sgn (m ((c.tc : Thread nD τ).loc main_arg1) i) :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps2, List.Forall, StableHlo.reshape_writes, Finset.mem_singleton]
          exact StableHlo.devRef_ne_of_ne (by decide)))
    _ = (dat1 (V1 m ρ) c).arrAt 1 cfg1.N := W2_arr m ρ c 1
    _ = SignsOfWeight.signs (V1 m ρ c main_arg1) := SignsOfWeight.filled (V1 m ρ) c
    _ = SignsOfWeight.signs (V0 m ρ c main_arg1) := congrArg SignsOfWeight.signs (W1_of_ne m ρ c main_arg1 (by decide))
    _ = fun i => sgn (m ((c.tc : Thread nD τ).loc main_arg1) i) := rfl

/-- The bias as the host operation finds it is the bias as launched: neither sign region writes it. -/
theorem bias_kept (c : Dev nD) :
    W2 m ρ c (Proc.devRef .tc main_arg2) = m ((c.tc : Thread nD τ).loc main_arg2) :=
  (W2_of_ne m ρ c main_arg2 (by decide)).trans ((W1_of_ne m ρ c main_arg2 (by decide)).trans rfl)

/-- The third region finds the one-row bias: entry `(0, o)` is `bias o`. -/
theorem bias_row (c : Dev nD) :
    V3 m ρ c main_v2 = fun j => m ((c.tc : Thread nD τ).loc main_arg2) (ix1 (j 1)) := by
  have e : V3 m ρ c main_v2
      = shapeCast S1x4096 (W2 m ρ c (Proc.devRef .tc main_arg2)) Facts₀.shapeCasts_S4096_S1x4096 := by
    show StableHlo.after hostOps2 (W2 m ρ c) (Proc.devRef .tc main_v2) = _
    after_results
    rfl
  rw [e, bias_kept]
  funext j
  obtain ⟨u, i, rfl⟩ : ∃ (u : Fin 1) (i : Fin 4096), j = ix2 u i := ⟨j 0, j 1, eq_ix2 j⟩
  exact shapeCast_a_1a_apply _ _ u i

/-- The result array after the run is the layer of the three argument arrays as launched. -/
theorem result_eq (c : Dev nD) :
    W4 m ρ c (Proc.devRef .tc main_v3)
      = layer (m ((c.tc : Thread nD τ).loc main_arg0)) (m ((c.tc : Thread nD τ).loc main_arg1))
          (m ((c.tc : Thread nD τ).loc main_arg2)) :=
  calc W4 m ρ c (Proc.devRef .tc main_v3)
    _ = (dat2 (V3 m ρ) c).arrAt 3 cfg2.N := W4_arr m ρ c 3
    _ = rowsDot (V3 m ρ c main_v0) (V3 m ρ c main_v1) (V3 m ρ c main_v2) := RowsTimesRows.filled (V3 m ρ) c
    _ = _ := by rw [signs_x, signs_w, bias_row]; rfl

end Cert.KernelIdeal.Whole

end
-- ==== Proof.lean ====
/-
  The certificate of the binarized linear layer: the kernel program against its reference.

  Both programs compute, on the extended reals,
      out (n, o) = ∑ k, sgn (x (n, k)) · sgn (w (o, k)) + bias o,        sgn t = 1 where 0 ≤ t, -1 elsewhere
  (Proof/BinaryLayer.lean). The kernel program does it in three pipelined regions — the signs of `x`, the signs of
  the weights, and the product of the two sign arrays (the second transposed) plus the bias row — and each region's
  result array is read off its write-backs block by block (Proof/SignsOfInput.lean, Proof/SignsOfWeight.lean,
  Proof/RowsTimesRows.lean), the three chained through the contents of the buffers between the regions
  (Proof/KernelRun.lean, Proof/KernelValue.lean). The reference forms each sign in the straight-through way,
  `t + (sgn t - t)`, which is `sgn t` exactly at the real numbers: that is where the precondition (every input
  finite, Proof/FiniteInputs.lean) is used (Proof/ReferenceValue.lean). The narrowing of the signs to the 16-bit
  format, the tiling, and the order of the contraction's sum make no difference on the extended reals.

  The idealized kernel program is the kernel program's own text (no rewrite was applied), so the fourth claim is
  trivial; the three frame claims are the programs' runs with the results dropped.
-/
import proofs.«111217_j65343632442057_2_alg».proof.Defs
import proofs.«111217_j65343632442057_2_alg».proof.Proof.Gen.Kernel
import proofs.«111217_j65343632442057_2_alg».proof.Proof.Gen.Kernel.Skeleton
import proofs.«111217_j65343632442057_2_alg».proof.Proof.Gen.Kernel.Launch
import proofs.«111217_j65343632442057_2_alg».proof.Proof.Gen.Kernel.Points
import proofs.«111217_j65343632442057_2_alg».proof.Proof.Gen.Kernel.Frame
import proofs.«111217_j65343632442057_2_alg».proof.Proof.Gen.KernelIdeal
import proofs.«111217_j65343632442057_2_alg».proof.Proof.Gen.KernelIdeal.Skeleton
import proofs.«111217_j65343632442057_2_alg».proof.Proof.Gen.KernelIdeal.Launch
import proofs.«111217_j65343632442057_2_alg».proof.Proof.Gen.KernelIdeal.Points
import proofs.«111217_j65343632442057_2_alg».proof.Proof.Gen.KernelIdeal.Frame
import proofs.«111217_j65343632442057_2_alg».proof.Proof.Gen.ReferenceIdeal
import proofs.«111217_j65343632442057_2_alg».proof.Proof.Gen.Pre_finite_inputs
import proofs.«111217_j65343632442057_2_alg».proof.Proof.Gen.ReferenceIdeal.Run
import proofs.«111217_j65343632442057_2_alg».proof.Proof.Gen.ReferenceIdeal.Read
import proofs.«111217_j65343632442057_2_alg».proof.Proof.BinaryLayer
import proofs.«111217_j65343632442057_2_alg».proof.Proof.FiniteInputs
import proofs.«111217_j65343632442057_2_alg».proof.Proof.ReferenceValue
import proofs.«111217_j65343632442057_2_alg».proof.Proof.KernelRun
import proofs.«111217_j65343632442057_2_alg».proof.Proof.KernelValue
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel program was rewritten for the ideal reading. -/
theorem preserves : Cert.preserves_Kernel_KernelIdeal := trivial

/-- From memories agreeing on the three arguments, all finite, both programs end with the layer of the arguments in
    their result arrays: the kernel program by the chain of its three regions, the reference because its
    straight-through signs are the signs at real numbers. -/
theorem algebraic : Cert.algebraic_KernelIdeal_ReferenceIdeal := by
  intro m ρ m' ρ' hpre hagree
  refine ⟨fun c => Cert.BinaryLayer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.result_eq m ρ c), (h c).2⟩)
      (Cert.KernelIdeal.Whole.run m ρ)
  · refine (θ_run Cert.ReferenceIdeal.defs _ _).mono (fun _ h c => ⟨?_, (h c).2⟩)
      (Cert.ReferenceIdeal.Value.run (F := Ideal) m' ρ')
    obtain ⟨h0, h1, -⟩ := Cert.Pre_finite_inputs.Finite.all_real (hpre c)
    rw [(h c).1, Cert.ReferenceIdeal.Read.val_main_v15_eq, (hagree c).1, (hagree c).2.1, (hagree c).2.2]
    exact Cert.ReferenceIdeal.RefValue.result_eq _ _ _ h0 h1

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
